-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x256, .f32⟩
  | .local _ .vmem, ⟨4, _⟩ => ⟨S1x128, .f32⟩
  | .local _ .vmem, ⟨5, _⟩ => ⟨S200x128, .f32⟩
  | .local _ .vmem, ⟨6, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S128_S1x128_1 : S128.BroadcastsInDim S1x128 (![1] : Fin 1 → Fin S1x128.rank)
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S10000x128_S10000x128_0_0 : ∀ a, (![0, 0] : Fin 2 → Nat) a + S10000x128.size a ≤ S10000x128.size a
  h_S10000x128 : 0 < S10000x128.numel
  broadcasts_S200x1_S200x128 : S200x1.Broadcasts S200x128
  h_S200x128 : 0 < S200x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S256x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.BodyRun.lean ====
/-
  What the body leaves in the output block, as a value.

  The body stores once, through the whole [200, 128] block, so what the block holds afterwards is that store's
  value: the body's arithmetic applied to what its six loads read. Four loads read a whole staged buffer (the block
  of adjacency rows, the whole feature matrix, the bias row) and so read its contents; the other three read a
  rectangle of a staged buffer: the 200 rows of the feature matrix that start at row 200·(grid coordinate), and the
  left and the right 128 columns of the weight matrix.
-/
import proofs.«155716_g62165356642709_cont_9to1_m_1371_17_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The rows of the feature matrix the body reads for itself at grid coordinate `i`: 200 rows from row 200·i. -/
abbrev selfRows (i : grid0.Coords) (x : Vec F S10000x128 .f32) : Vec F S200x128 .f32 :=
  View.ld x (Rect.unit (s := S10000x128) (k0_off1 i) S200x128.size (k0_off1_inb i))
/-- The left 128 columns of the weight matrix, and the right 128. -/
abbrev leftCols (w : Vec F S128x256 .f32) : Vec F S128x128 .f32 :=
  View.ld w (Rect.unit (s := S128x256) ![0, 0] S128x128.size inb_S128x256_S128x128_0_0)
abbrev rightCols (w : Vec F S128x256 .f32) : Vec F S128x128 .f32 :=
  View.ld w (Rect.unit (s := S128x256) ![0, 128] S128x128.size inb_S128x256_S128x128_0_128)

/-- After the body, the output block holds the body's arithmetic of the adjacency block `a`, the feature matrix `x`,
    its own 200 rows of `x`, the two halves of the weight matrix `w` and the bias row `β`. -/
theorem out_eq (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S200x128 .f32) (harg5 : arg5.IsWhole)
    (a : Vec F S200x10000 .f32) (x : Vec F S10000x128 .f32) (w : Vec F S128x256 .f32) (β : Vec F S1x128 .f32) :
    out0_A_4 c i arg1 harg1 arg2 harg2 arg3 harg3 arg4 harg4 arg5 harg5 a x w β
      = k0_pay1 a x (selfRows i x) (leftCols w) (rightCols w) β := by
  unfold out0_A_4
  rw [View.read_writes_eq_canon _ _ _ (cover0_A_4 c i arg1 harg1 arg2 harg2 arg3 harg3 arg4 harg4 arg5 harg5 a x w β)]
  unfold kernelRun0_A
  dsimp only
  rw [View.canon_unit_zero zero_offsets]
  simp only [View.readAt_eq_ld, harg1.read_unread, harg2.read_unread, harg3.read_unread, harg4.read_unread,
    View.ld_unit_zero (S := S200x10000) zero_offsets, View.ld_unit_zero (S := S10000x128) zero_offsets,
    View.ld_unit_zero (S := S1x128) zero_offsets]

end Cert.KernelIdeal.Body

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.SageSpec.lean ====
/-
  The function both programs compute: one GraphSAGE layer with mean aggregation over a dense adjacency.
  For a node `r` and an output feature `o`, over the extended reals,

      deg r    = max (∑ₖ adj[r, k]) 1
      agg r f  = (∑ₖ adj[r, k] · x[k, f]) / deg r
      out r o  = max ((∑_f x[r, f] · W[o, f]) + (∑_f agg r f · W[o, 128 + f]) + b[o]) 0

  The weight matrix acts on the row `(x[r, ·], agg r ·)` of length 256; written as above the product is already
  split into the half that meets the node's own features and the half that meets the aggregated ones. The one
  law needed to pass between the two spellings is that a sum over 256 columns is the sum over the first 128 plus
  the sum over the last 128 — a regrouping of a finite sum in a commutative monoid, so it holds at the infinities too.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Column `f` of the first half of a 256-wide row, and column `f` of the second half. -/
abbrev lo (f : Fin 128) : Fin 256 := ⟨f.val, by have := f.isLt; omega⟩
abbrev hi (f : Fin 128) : Fin 256 := ⟨128 + f.val, by have := f.isLt; omega⟩

/-- A sum over 256 columns is the sum over the first 128 plus the sum over the last 128. -/
theorem sum_halves {M : Type*} [AddCommMonoid M] (h : Fin 256 → M) :
    ∑ k : Fin 256, h k = ∑ f : Fin 128, h (lo f) + ∑ f : Fin 128, h (hi f) :=
  Fin.sum_univ_add (a := 128) (b := 128) (f := h)

/-- The degree of node `r`, clamped below by one (the literal is the f32 word of 1.0). -/
def deg (adj : (⟨2, ![10000, 10000]⟩ : Shape).Idx → EReal) (r : Fin 10000) : EReal :=
  max (∑ k : Fin 10000, adj (ix2 r k)) (Ideal.ofBits .f32 0x3F800000#32)

/-- Feature `f` of the mean of the neighbours' features at node `r`. -/
def agg (x : (⟨2, ![10000, 128]⟩ : Shape).Idx → EReal) (adj : (⟨2, ![10000, 10000]⟩ : Shape).Idx → EReal)
    (r : Fin 10000) (f : Fin 128) : EReal :=
  Ideal.div (∑ k : Fin 10000, adj (ix2 r k) * x (ix2 k f)) (deg adj r)

/-- The layer's output at node `r`, feature `o`, before the index is split into coordinates. -/
def entry (x : (⟨2, ![10000, 128]⟩ : Shape).Idx → EReal) (adj : (⟨2, ![10000, 10000]⟩ : Shape).Idx → EReal)
    (W : (⟨2, ![128, 256]⟩ : Shape).Idx → EReal) (b : (⟨1, ![128]⟩ : Shape).Idx → EReal) (r : Fin 10000) (o : Fin 128) : EReal :=
  max ((∑ f : Fin 128, x (ix2 r f) * W (ix2 o (lo f)) + ∑ f : Fin 128, agg x adj r f * W (ix2 o (hi f)))
      + b (ix1 o)) (Ideal.ofBits .f32 0x00000000#32)

/-- The layer as one function of the four argument arrays, index by index. -/
def layer (x : (⟨2, ![10000, 128]⟩ : Shape).Idx → EReal) (adj : (⟨2, ![10000, 10000]⟩ : Shape).Idx → EReal)
    (W : (⟨2, ![128, 256]⟩ : Shape).Idx → EReal) (b : (⟨1, ![128]⟩ : Shape).Idx → EReal) :
    (⟨2, ![10000, 128]⟩ : Shape).Idx → EReal :=
  fun j => entry x adj W b (j 0) (j 1)

end Cert.Sage

end
-- ==== Proof.BodyValue.lean ====
/-
  The kernel body's arithmetic, read at one entry.

  At a grid point the body holds a block `a` of 200 rows of the adjacency (all 10000 columns), the whole feature
  matrix `x`, the same 200 rows `xs` of the feature matrix, the two 128-column halves `w₁`, `w₂` of the weight
  matrix and the bias row `β`. The one value it stores is, at row `p` and output feature `o`,

      max ((∑_f xs[p, f] · w₁[o, f]) + (∑_f ((∑ₖ a[p, k] · x[k, f]) / max (∑ₖ a[p, k]) 1) · w₂[o, f]) + β[0, o]) 0.

  Each step is one operation of the body read at an index: a sum along a row is a sum over the row's columns; a
  length-200 vector viewed as a column, and a column or a row repeated across a [200, 128] block, read the entry
  of the same row (or column); a matrix product into a zero accumulator is the sum over the contracted index of
  the products; both of the small products contract the SECOND axis of each operand, so entry (p, o) pairs row `p`
  of the left operand with row `o` of the right one.
-/
import proofs.«155716_g62165356642709_cont_9to1_m_1371_17_alg».proof.Proof.Gen.KernelIdeal.Skeleton
import proofs.«155716_g62165356642709_cont_9to1_m_1371_17_alg».proof.Proof.LibRows
import proofs.«155716_g62165356642709_cont_9to1_m_1371_17_alg».proof.Proof.SageSpec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The contraction of a block of adjacency rows with the feature matrix: over the 10000 nodes. -/
abbrev dotAgg := dot_S200x10000_S10000x128_S200x128_1_0_0_1_n_n
/-- The contraction of a block of feature rows with a half of the weight matrix: over the 128 features, the second
    axis of both operands. -/
abbrev dotLin := dot_S200x128_S128x128_S200x128_1_1_0_0_n_n

/-- The sum along row `p` of a block of adjacency rows. -/
theorem rowsum_apply (a : FVec Ideal S200x10000 .f32) (p : Fin 200) :
    multiReduction (F := Ideal) .add [1] S200 a 0x00000000#32 reduces_S200x10000_S200 (.inl rfl) rfl (ix1 p)
      = ∑ k : Fin 10000, a (ix2 p k) :=
  (Ideal.multiReduction_add_single a 0x00000000#32 reduces_S200x10000_S200 (.inl rfl) rfl (ix1 p)).trans
    (Finset.sum_congr rfl fun k _ => congrArg a (Cert.Rows.lift_row reduces_S200x10000_S200 p k))

/-! ### The operand indices of the two products -/

theorem aggL0 (i : S200x128.Idx) (q : dotAgg.contr.Idx) : (dotAgg.lhsIdx i q 0).val = (i 0).val := by
  unfold DotDims.lhsIdx
  rw [dif_neg (show ¬(0 : Fin S200x10000.rank) ∈ dotAgg.lhsBatch by decide), dif_pos (show (0 : Fin S200x10000.rank) ∈ dotAgg.lhsNonContracting by decide)]
  rfl
theorem aggL1 (i : S200x128.Idx) (q : dotAgg.contr.Idx) : (dotAgg.lhsIdx i q 1).val = (q ⟨0, by decide⟩).val :=
  dotAgg.lhsIdx_val_of_single rfl i q
theorem aggR0 (i : S200x128.Idx) (q : dotAgg.contr.Idx) : (dotAgg.rhsIdx i q 0).val = (q ⟨0, by decide⟩).val :=
  dotAgg.rhsIdx_val_of_single rfl i q
theorem aggR1 (i : S200x128.Idx) (q : dotAgg.contr.Idx) : (dotAgg.rhsIdx i q 1).val = (i 1).val := by
  unfold DotDims.rhsIdx
  rw [dif_neg (show ¬(1 : Fin S10000x128.rank) ∈ dotAgg.rhsBatch by decide), dif_pos (show (1 : Fin S10000x128.rank) ∈ dotAgg.rhsNonContracting by decide)]
  rfl

theorem linL0 (i : S200x128.Idx) (q : dotLin.contr.Idx) : (dotLin.lhsIdx i q 0).val = (i 0).val := by
  unfold DotDims.lhsIdx
  rw [dif_neg (show ¬(0 : Fin S200x128.rank) ∈ dotLin.lhsBatch by decide), dif_pos (show (0 : Fin S200x128.rank) ∈ dotLin.lhsNonContracting by decide)]
  rfl
theorem linL1 (i : S200x128.Idx) (q : dotLin.contr.Idx) : (dotLin.lhsIdx i q 1).val = (q ⟨0, by decide⟩).val :=
  dotLin.lhsIdx_val_of_single rfl i q
theorem linR0 (i : S200x128.Idx) (q : dotLin.contr.Idx) : (dotLin.rhsIdx i q 0).val = (i 1).val := by
  unfold DotDims.rhsIdx
  rw [dif_neg (show ¬(0 : Fin S128x128.rank) ∈ dotLin.rhsBatch by decide), dif_pos (show (0 : Fin S128x128.rank) ∈ dotLin.rhsNonContracting by decide)]
  rfl
theorem linR1 (i : S200x128.Idx) (q : dotLin.contr.Idx) : (dotLin.rhsIdx i q 1).val = (q ⟨0, by decide⟩).val :=
  dotLin.rhsIdx_val_of_single rfl i q

/-- Rows of the adjacency block times the feature matrix, into a zero accumulator: entry (p, f) is the sum over the
    nodes `k` of `a[p, k] · x[k, f]`. -/
theorem agg_apply (a : FVec Ideal S200x10000 .f32) (x : FVec Ideal S10000x128 .f32) (p : Fin 200) (f : Fin 128) :
    matmul (F := Ideal) dotAgg none a x (constant S200x128 .f32 0x00000000#32) (ix2 p f)
      = ∑ k : Fin 10000, a (ix2 p k) * x (ix2 k f) := by
  simp only [matmul]
  rw [Ideal.matmul_constant_zero_apply, ← Equiv.sum_comp (contrEquiv1 dotAgg 10000 rfl rfl).symm]
  refine Finset.sum_congr rfl fun k _ => ?_
  have hk := contrEquiv1_symm_val dotAgg 10000 rfl rfl k
  have el : dotAgg.lhsIdx (ix2 p f) ((contrEquiv1 dotAgg 10000 rfl rfl).symm k) = ix2 p k := funext fun c => Fin.ext (by
    match c with
    | ⟨0, _⟩ => exact aggL0 _ _
    | ⟨1, _⟩ => exact (aggL1 _ _).trans hk)
  have er : dotAgg.rhsIdx (ix2 p f) ((contrEquiv1 dotAgg 10000 rfl rfl).symm k) = ix2 k f := funext fun c => Fin.ext (by
    match c with
    | ⟨0, _⟩ => exact (aggR0 _ _).trans hk
    | ⟨1, _⟩ => exact aggR1 _ _)
  rw [el, er]

/-- Feature rows times a half of the weight matrix, both contracted along their second axis, into a zero
    accumulator: entry (p, o) is the sum over the features `f` of `l[p, f] · w[o, f]`. -/
theorem lin_apply (l : FVec Ideal S200x128 .f32) (w : FVec Ideal S128x128 .f32) (p : Fin 200) (o : Fin 128) :
    matmul (F := Ideal) dotLin none l w (constant S200x128 .f32 0x00000000#32) (ix2 p o)
      = ∑ f : Fin 128, l (ix2 p f) * w (ix2 o f) := by
  simp only [matmul]
  rw [Ideal.matmul_constant_zero_apply, ← Equiv.sum_comp (contrEquiv1 dotLin 128 rfl rfl).symm]
  refine Finset.sum_congr rfl fun k _ => ?_
  have hk := contrEquiv1_symm_val dotLin 128 rfl rfl k
  have el : dotLin.lhsIdx (ix2 p o) ((contrEquiv1 dotLin 128 rfl rfl).symm k) = ix2 p k := funext fun c => Fin.ext (by
    match c with
    | ⟨0, _⟩ => exact linL0 _ _
    | ⟨1, _⟩ => exact (linL1 _ _).trans hk)
  have er : dotLin.rhsIdx (ix2 p o) ((contrEquiv1 dotLin 128 rfl rfl).symm k) = ix2 o k := funext fun c => Fin.ext (by
    match c with
    | ⟨0, _⟩ => exact linR0 _ _
    | ⟨1, _⟩ => exact (linR1 _ _).trans hk)
  rw [el, er]

/-- An aggregated feature: the product of the adjacency rows with the feature matrix, divided by the row's degree
    clamped below by one (the degree is a column [200, 1] repeated across the 128 features). -/
theorem mean_apply (a : FVec Ideal S200x10000 .f32) (x : FVec Ideal S10000x128 .f32) (p : Fin 200) (f : Fin 128) :
    divf (matmul (F := Ideal) dotAgg none a x (constant S200x128 .f32 0x00000000#32))
        (broadcastTo S200x128
          (maximumf (shapeCast S200x1 (multiReduction (F := Ideal) .add [1] S200 a 0x00000000#32 reduces_S200x10000_S200 (.inl rfl) rfl) shapeCasts_S200_S200x1)
            (broadcast S200x1 (Scalar.ofBits .f32 0x3F800000#32)))
          broadcasts_S200x1_S200x128) (ix2 p f)
      = Ideal.div (∑ k : Fin 10000, a (ix2 p k) * x (ix2 k f))
          (max (∑ k : Fin 10000, a (ix2 p k)) (Ideal.ofBits .f32 0x3F800000#32)) := by
  rw [divf_apply, agg_apply, Cert.Rows.bcast_col (by decide), maximumf_apply, broadcast_apply, Cert.Rows.cast_col, rowsum_apply]
  rfl

/-- The body's stored value at row `p`, output feature `o`. -/
theorem pay_apply (a : FVec Ideal S200x10000 .f32) (x : FVec Ideal S10000x128 .f32) (xs : FVec Ideal S200x128 .f32)
    (w₁ w₂ : FVec Ideal S128x128 .f32) (β : FVec Ideal S1x128 .f32) (p : Fin 200) (o : Fin 128) :
    k0_pay1 (F := Ideal) a x xs w₁ w₂ β (ix2 p o)
      = max ((∑ f : Fin 128, xs (ix2 p f) * w₁ (ix2 o f)
            + ∑ f : Fin 128, Ideal.div (∑ k : Fin 10000, a (ix2 p k) * x (ix2 k f))
                (max (∑ k : Fin 10000, a (ix2 p k)) (Ideal.ofBits .f32 0x3F800000#32)) * w₂ (ix2 o f))
          + β (ix2 0 o)) (Ideal.ofBits .f32 0x00000000#32) := by
  unfold k0_pay1
  dsimp only
  rw [maximumf_apply, broadcast_apply, addf_apply, addf_apply, Cert.Rows.bcast_row (by decide), shapeCast_self,
    lin_apply, lin_apply]
  exact congrArg
    (fun s : EReal => max ((∑ f : Fin 128, xs (ix2 p f) * w₁ (ix2 o f) + s) + β (ix2 0 o)) (Ideal.ofBits .f32 0x00000000#32))
    (Finset.sum_congr rfl fun f _ => congrArg (· * w₂ (ix2 o f)) (mean_apply a x p f))

/-- If the six blocks the body reads are the argument arrays at the right places — the adjacency block's row `p`
    is row `r` of the adjacency, its own feature rows' row `p` is row `r` of the feature matrix, the two weight
    halves are the left and right 128 columns, the bias row is the bias — then the value the body stores at (p, o)
    is the layer's output at node `r`, feature `o`. -/
theorem entry_of_blocks (x : (⟨2, ![10000, 128]⟩ : Shape).Idx → EReal) (adj : (⟨2, ![10000, 10000]⟩ : Shape).Idx → EReal)
    (W : (⟨2, ![128, 256]⟩ : Shape).Idx → EReal) (b : (⟨1, ![128]⟩ : Shape).Idx → EReal) (r : Fin 10000) (o : Fin 128)
    (a : FVec Ideal S200x10000 .f32) (xw : FVec Ideal S10000x128 .f32) (xs : FVec Ideal S200x128 .f32)
    (w₁ w₂ : FVec Ideal S128x128 .f32) (β : FVec Ideal S1x128 .f32) (p : Fin 200)
    (ha : ∀ k : Fin 10000, a (ix2 p k) = adj (ix2 r k)) (hx : ∀ (k : Fin 10000) (f : Fin 128), xw (ix2 k f) = x (ix2 k f))
    (hxs : ∀ f : Fin 128, xs (ix2 p f) = x (ix2 r f))
    (h₁ : ∀ f : Fin 128, w₁ (ix2 o f) = W (ix2 o (Cert.Sage.lo f))) (h₂ : ∀ f : Fin 128, w₂ (ix2 o f) = W (ix2 o (Cert.Sage.hi f)))
    (hβ : β (ix2 0 o) = b (ix1 o)) :
    k0_pay1 (F := Ideal) a xw xs w₁ w₂ β (ix2 p o) = Cert.Sage.entry x adj W b r o := by
  rw [pay_apply]
  unfold Cert.Sage.entry Cert.Sage.agg Cert.Sage.deg
  simp only [ha, hx, hxs, h₁, h₂, hβ]

end Cert.KernelIdeal.Body

end
-- ==== Proof.WholeArray.lean ====
/-
  From the blocks to the whole array.

  The grid has 50 points. Point `t` reads rows 200·t … 200·t + 199 of the adjacency (all columns), the whole feature
  matrix, the whole weight matrix and the bias row, and writes rows 200·t … 200·t + 199 of the result. Inside the body
  the node's own features are read from the staged feature matrix at the same rows 200·t + p.

  So the value the body stores at (p, o) at point `t` is the layer's output at node 200·t + p, feature `o`: the
  block written back at point `t` is the layer restricted to that block's rows. The 50 blocks tile the 10000 rows
  (row `r` lies in block `r / 200`), so after the run the result array is the layer of the argument arrays.

  The bias reaches the kernel as a [1, 128] row that the program makes from the length-128 bias before the region;
  its entry (0, o) is `b[o]`.
-/
import proofs.«155716_g62165356642709_cont_9to1_m_1371_17_alg».proof.Proof.Gen.KernelIdeal.Value
import proofs.«155716_g62165356642709_cont_9to1_m_1371_17_alg».proof.Proof.BodyRun
import proofs.«155716_g62165356642709_cont_9to1_m_1371_17_alg».proof.Proof.BodyValue
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the argument arrays as launched, as contents of the result array. -/
abbrev result (c : Dev nD) : Buf (Elt Ideal) ((c : Thread nD τ).loc main_v1) :=
  Cert.Sage.layer (m ((c : Thread nD τ).loc main_arg0)) (m ((c : Thread nD τ).loc main_arg1)) (m ((c : Thread nD τ).loc main_arg2)) (m ((c : Thread nD τ).loc main_arg3))

/-- Where each window's block sits at point `t`, decided over the 50 points: the adjacency's and the result's blocks
    are block-row `t`; the feature matrix, the weights and the bias row are whole; the grid coordinate is `t`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- The adjacency block at point `t`: its row `p` is row 200·t + p of the adjacency. -/
theorem adj_block (c : Dev nD) (t : Fin cfg0.N) (p : Fin 200) (k : Fin 10000) (r : Fin 10000)
    (hr : r.val = 200 * t.val + p.val) :
    (iblk m c 0 t : Vec Ideal S200x10000 .f32) (ix2 p k) = (m ((c : Thread nD τ).loc main_arg1)) (ix2 r k) := by
  obtain ⟨e0, e1, -⟩ := index_facts t
  unfold iblk
  rw [View.read_apply]
  refine (congrFun (V_main_arg1 m c) _).trans (congrArg (m ((c : Thread nD τ).loc main_arg1)) (funext fun a => Fin.ext ?_))
  match a with
  | ⟨0, _⟩ => show win0_0.index t 0 * 200 + 1 * p.val = r.val; rw [e0, hr]; omega
  | ⟨1, _⟩ => show win0_0.index t 1 * 10000 + 1 * k.val = k.val; rw [e1]; omega

/-- The staged feature matrix at point `t` is the whole feature matrix. -/
theorem x_block (c : Dev nD) (t : Fin cfg0.N) (j : S10000x128.Idx) (k : Fin 10000) (f : Fin 128)
    (h0 : (j 0).val = k.val) (h1 : (j 1).val = f.val) :
    (iblk m c 1 t : Vec Ideal S10000x128 .f32) j = (m ((c : Thread nD τ).loc main_arg0)) (ix2 k f) := by
  obtain ⟨-, -, e0, e1, -⟩ := index_facts t
  unfold iblk
  rw [View.read_apply]
  refine (congrFun (V_main_arg0 m c) _).trans (congrArg (m ((c : Thread nD τ).loc main_arg0)) (funext fun a => Fin.ext ?_))
  match a with
  | ⟨0, _⟩ => show win0_1.index t 0 * 10000 + 1 * (j 0).val = k.val; rw [e0, h0]; omega
  | ⟨1, _⟩ => show win0_1.index t 1 * 128 + 1 * (j 1).val = f.val; rw [e1, h1]; omega

/-- The staged weight matrix at point `t` is the whole weight matrix. -/
theorem w_block (c : Dev nD) (t : Fin cfg0.N) (j : S128x256.Idx) (o : Fin 128) (k : Fin 256)
    (h0 : (j 0).val = o.val) (h1 : (j 1).val = k.val) :
    (iblk m c 2 t : Vec Ideal S128x256 .f32) j = (m ((c : Thread nD τ).loc main_arg2)) (ix2 o k) := by
  obtain ⟨-, -, -, -, e0, e1, -⟩ := index_facts t
  unfold iblk
  rw [View.read_apply]
  refine (congrFun (V_main_arg2 m c) _).trans (congrArg (m ((c : Thread nD τ).loc main_arg2)) (funext fun a => Fin.ext ?_))
  match a with
  | ⟨0, _⟩ => show win0_2.index t 0 * 128 + 1 * (j 0).val = o.val; rw [e0, h0]; omega
  | ⟨1, _⟩ => show win0_2.index t 1 * 256 + 1 * (j 1).val = k.val; rw [e1, h1]; omega

/-- The bias row as the region finds it: the length-128 bias laid out as one row. -/
theorem bias_row (c : Dev nD) :
    (V m c main_v0 : S1x128.Idx → EReal) = broadcastInDim S1x128 ![1] bcast_S128_S1x128_1 (m ((c : Thread nD τ).loc main_arg3)) := by
  dsimp only [Gen.V, Gen.hostOps0]; after_results

/-- The staged bias row at point `t`: entry (0, o) is `b[o]`. -/
theorem b_block (c : Dev nD) (t : Fin cfg0.N) (o : Fin 128) :
    (iblk m c 3 t : Vec Ideal S1x128 .f32) (ix2 0 o) = (m ((c : Thread nD τ).loc main_arg3)) (ix1 o) := by
  obtain ⟨-, -, -, -, -, -, e0, e1, -⟩ := index_facts t
  unfold iblk
  rw [View.read_apply]
  show (V m c main_v0 : S1x128.Idx → EReal) _ = _
  rw [bias_row]
  refine broadcastInDim_apply _ bcast_S128_S1x128_1 _ _ (ix1 o) (fun a => ?_)
  match a with
  | ⟨0, _⟩ =>
    show o.val = if (128 : Nat) = 1 then 0 else win0_3.index t 1 * 128 + 1 * o.val
    rw [if_neg (by decide), e1]; omega

/-- What point `t` writes back is the layer read through that point's block. -/
theorem flushed_eq (c : Dev nD) (t : Fin cfg0.N) :
    (dats m 0 c).flushed 4 t = ((cfg0.win 4).blk t).view.read (Elt Ideal) (result m c) := by
  rw [flushed4_A m c t, Body.out_eq]
  refine funext fun (y : S200x128.Idx) => ?_
  obtain ⟨p, o, rfl⟩ : ∃ (p : Fin 200) (o : Fin 128), y = ix2 p o := ⟨y 0, y 1, eq_ix2 y⟩
  have hN : cfg0.N = 50 := N_0
  have hp := p.isLt
  have ht := t.isLt
  obtain ⟨-, -, -, -, -, -, -, -, e40, e41, ec⟩ := index_facts t
  have hoff := k0_off1_eq (grid0.coords t)
  obtain ⟨r, hr⟩ : ∃ r : Fin 10000, r.val = 200 * t.val + p.val := ⟨⟨200 * t.val + p.val, by omega⟩, rfl⟩
  show k0_pay1 (F := Ideal) (iblk m c 0 t) (iblk m c 1 t) (Body.selfRows (grid0.coords t) (iblk m c 1 t))
      (Body.leftCols (iblk m c 2 t)) (Body.rightCols (iblk m c 2 t)) (iblk m c 3 t) (ix2 p o)
    = result m c (((cfg0.win 4).blk t).view.emb (ix2 p o))
  refine (Body.entry_of_blocks (m ((c : Thread nD τ).loc main_arg0)) (m ((c : Thread nD τ).loc main_arg1)) (m ((c : Thread nD τ).loc main_arg2)) (m ((c : Thread nD τ).loc main_arg3)) r o
    (iblk m c 0 t) (iblk m c 1 t) (Body.selfRows (grid0.coords t) (iblk m c 1 t))
    (Body.leftCols (iblk m c 2 t)) (Body.rightCols (iblk m c 2 t)) (iblk m c 3 t) p
    (fun k => adj_block m c t p k r hr) (fun k f => x_block m c t (ix2 k f) k f rfl rfl)
    (fun f => ?_) (fun f => ?_) (fun f => ?_) (b_block m c t o)).trans ?_
  · refine x_block m c t _ r f ?_ ?_
    · show k0_off1 (grid0.coords t) 0 + 1 * p.val = r.val
      rw [hoff, hr]; show 200 * (grid0.coords t 0).val + 1 * p.val = _; rw [ec]; omega
    · show k0_off1 (grid0.coords t) 1 + 1 * f.val = f.val
      rw [hoff]; show 0 + 1 * f.val = _; omega
  · refine w_block m c t _ o (Cert.Sage.lo f) ?_ ?_
    · show 0 + 1 * o.val = o.val; omega
    · show 0 + 1 * f.val = f.val; omega
  · refine w_block m c t _ o (Cert.Sage.hi f) ?_ ?_
    · show 0 + 1 * o.val = o.val; omega
    · show 128 + 1 * f.val = 128 + f.val; omega
  · show Cert.Sage.entry _ _ _ _ r o = Cert.Sage.entry _ _ _ _ _ _
    congr 1
    · apply Fin.ext
      show r.val = win0_4.index t 0 * 200 + 1 * p.val
      rw [e40, hr]; omega
    · apply Fin.ext
      show o.val = win0_4.index t 1 * 128 + 1 * o.val
      rw [e41]; omega

/-- Every entry of the result array lies in some point's block: row `r` in block `r / 200`. -/
theorem covered (c : Dev nD) (i : S10000x128.Idx) :
    ∃ t : Fin cfg0.N, (cfg0.win 4).flush t = true ∧ i ∈ ((cfg0.win 4).blk t).view.set := by
  have hN : cfg0.N = 50 := N_0
  have h0 : (i 0).val < 10000 := (i 0).isLt
  have h1 : (i 1).val < 128 := (i 1).isLt
  obtain ⟨t, ht⟩ : ∃ t : Fin cfg0.N, t.val = (i 0).val / 200 := ⟨⟨(i 0).val / 200, by rw [hN]; omega⟩, rfl⟩
  obtain ⟨-, -, -, -, -, -, -, -, e40, e41, -⟩ := index_facts t
  refine ⟨t, flush0_4 t, ?_⟩
  show i ∈ ((View.whole main_v1).slice (win0_4.rect t)).set
  rw [View.set_slice_whole, Rect.mem_set_unit]
  intro a
  match a with
  | ⟨0, _⟩ =>
    show win0_4.index t 0 * 200 ≤ (i 0).val ∧ (i 0).val < win0_4.index t 0 * 200 + 200
    rw [e40, ht]; omega
  | ⟨1, _⟩ =>
    show win0_4.index t 1 * 128 ≤ (i 1).val ∧ (i 1).val < win0_4.index t 1 * 128 + 128
    rw [e41]; omega

/-- After the run the result array is the layer of the argument arrays. -/
theorem final (c : Dev nD) : (dats m 0 c).arrAt 4 cfg0.N = result m c :=
  (dats m 0 c).arrAt_eq_of_cover 4 (result m c) (fun t _ => flushed_eq m c t) (covered c)

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefIsLayer.lean ====
/-
  The reference program computes the layer.

  Its run ends at the last stage of a straight line of host operations. Read at node `r` and output feature `o`:

  * the degree is the row sum of the adjacency from a zero start, clamped below by one — `max 1 (0 + ∑ₖ adj[r, k])`,
    which is `max (∑ₖ adj[r, k]) 1` because `0 + s = s` and `max` is symmetric;
  * the aggregated feature `f` is `(∑ₖ adj[r, k] · x[k, f])` divided by that degree;
  * the row that meets the weights is the concatenation of `x[r, ·]` and the aggregated features, 256 long; its
    column `f` (for `f < 128`) is `x[r, f]` and its column `128 + f` is the aggregated feature `f`;
  * the product with the transposed weight matrix sums `row[k] · W[o, k]` over the 256 columns; split into the
    two halves it is `∑_f x[r, f] · W[o, f] + ∑_f agg r f · W[o, 128 + f]`;
  * the bias `b[o]` is added and the result clamped below by zero.
-/
import proofs.«155716_g62165356642709_cont_9to1_m_1371_17_alg».proof.Proof.Gen.ReferenceIdeal.Read
import proofs.«155716_g62165356642709_cont_9to1_m_1371_17_alg».proof.Proof.SageSpec

noncomputable section

namespace Cert.ReferenceIdeal.RefValue

open Cert.ReferenceIdeal Cert.ReferenceIdeal.Gen Cert.ReferenceIdeal.Read Idealize.ShloMosaic Idealize.ShloMosaic.ValueIdx

/-- The clamped degree of node `r` (the column keeps a unit axis, whose coordinate plays no part). -/
theorem deg_ref (adj : (⟨S10000x10000, .f32⟩ : BufTy).Contents (Elt Ideal)) (r : Fin 10000) (u : Fin 1) :
    val_main_v2 (F := Ideal) adj (ix2 r u) = Cert.Sage.deg adj r := by
  rw [val_main_v2_apply, val_main_call0_v1_apply, val_main_call0_v0_apply, val_main_cst_0_apply, val_main_v1_apply,
    val_main_v0_apply, val_main_cst_apply]
  have e : ∀ k : Fin 10000, idx_main_v0 (idx_main_v1 (ix2 r u)) k = ix2 r k := fun k =>
    funext fun a => Fin.ext (by match a with | ⟨0, _⟩ => rfl | ⟨1, _⟩ => rfl)
  unfold Cert.Sage.deg
  simp only [e, Ideal.maximumf_def, Ideal.ofBits_def, Ideal.ofBits_zero_f32, zero_add]
  exact max_comm _ _

/-- Feature `f` of the mean of the neighbours' features at node `r`. -/
theorem agg_ref (x : (⟨S10000x128, .f32⟩ : BufTy).Contents (Elt Ideal)) (adj : (⟨S10000x10000, .f32⟩ : BufTy).Contents (Elt Ideal))
    (r : Fin 10000) (f : Fin 128) : val_main_v5 (F := Ideal) x adj (ix2 r f) = Cert.Sage.agg x adj r f := by
  rw [val_main_v5_apply, val_main_v3_apply, val_main_v4_apply]
  have e4 : idx_main_v4 (ix2 r f) = ix2 r (0 : Fin 1) :=
    funext fun a => Fin.ext (by match a with | ⟨0, _⟩ => rfl | ⟨1, _⟩ => rfl)
  have el : ∀ k : Fin 10000, lidx_main_v3 (ix2 r f) k = ix2 r k := fun k =>
    funext fun a => Fin.ext (by match a with | ⟨0, _⟩ => rfl | ⟨1, _⟩ => rfl)
  have er : ∀ k : Fin 10000, ridx_main_v3 (ix2 r f) k = ix2 k f := fun k =>
    funext fun a => Fin.ext (by match a with | ⟨0, _⟩ => rfl | ⟨1, _⟩ => rfl)
  rw [e4, deg_ref]
  unfold Cert.Sage.agg
  simp only [el, er, Ideal.hostDivf_def]

/-- Column `f` of the first half of the concatenated row is the node's own feature `f`. -/
theorem cat_lo (x : (⟨S10000x128, .f32⟩ : BufTy).Contents (Elt Ideal)) (adj : (⟨S10000x10000, .f32⟩ : BufTy).Contents (Elt Ideal))
    (r : Fin 10000) (o f : Fin 128) :
    val_main_v6 (F := Ideal) x adj (lidx_main_v8 (ix2 r o) (Cert.Sage.lo f)) = x (ix2 r f) := by
  unfold val_main_v6
  exact concatenate_pair_apply_left (t := S10000x256) (s₁ := S10000x128) (s₂ := S10000x128) (1 : Fin 2) x
    (val_main_v5 (F := Ideal) x adj) concatenates_S10000x128_S10000x128_S10000x256_d1
    (lidx_main_v8 (ix2 r o) (Cert.Sage.lo f)) rfl (ix2 r f)
    (fun b => by match b with | ⟨0, _⟩ => rfl | ⟨1, _⟩ => rfl)

/-- Column `128 + f` of the concatenated row is the aggregated feature `f`. -/
theorem cat_hi (x : (⟨S10000x128, .f32⟩ : BufTy).Contents (Elt Ideal)) (adj : (⟨S10000x10000, .f32⟩ : BufTy).Contents (Elt Ideal))
    (r : Fin 10000) (o f : Fin 128) :
    val_main_v6 (F := Ideal) x adj (lidx_main_v8 (ix2 r o) (Cert.Sage.hi f)) = val_main_v5 (F := Ideal) x adj (ix2 r f) := by
  unfold val_main_v6
  exact concatenate_pair_apply_right (t := S10000x256) (s₁ := S10000x128) (s₂ := S10000x128) (1 : Fin 2) x
    (val_main_v5 (F := Ideal) x adj) concatenates_S10000x128_S10000x128_S10000x256_d1
    (lidx_main_v8 (ix2 r o) (Cert.Sage.hi f)) rfl rfl (ix2 r f)
    (fun b hb => by
      match b, hb with
      | ⟨0, _⟩, _ => rfl
      | ⟨1, _⟩, hb => exact absurd rfl hb)
    (by show f.val + 128 = 128 + f.val; omega)

/-- The transposed weight matrix at (k, o) is the weight matrix at (o, k). -/
theorem wt_apply (W : (⟨S128x256, .f32⟩ : BufTy).Contents (Elt Ideal)) (r : Fin 10000) (o : Fin 128) (k : Fin 256) :
    val_main_v7 (F := Ideal) W (ridx_main_v8 (ix2 r o) k) = W (ix2 o k) := by
  rw [val_main_v7_apply]
  exact congrArg W (funext fun a => Fin.ext (by match a with | ⟨0, _⟩ => rfl | ⟨1, _⟩ => rfl))

/-- The bias, repeated down the rows, at (r, o) is `b[o]`. -/
theorem bias_apply (b : (⟨S128, .f32⟩ : BufTy).Contents (Elt Ideal)) (r : Fin 10000) (o : Fin 128) :
    val_main_v10 (F := Ideal) b (ix2 r o) = b (ix1 o) := by
  rw [val_main_v10_apply, val_main_v9_apply]
  exact congrArg b (funext fun a => Fin.ext (by match a with | ⟨0, _⟩ => rfl))

/-- The reference's last stage is the layer, index by index. -/
theorem ref_is_layer (x : (⟨S10000x128, .f32⟩ : BufTy).Contents (Elt Ideal)) (adj : (⟨S10000x10000, .f32⟩ : BufTy).Contents (Elt Ideal))
    (W : (⟨S128x256, .f32⟩ : BufTy).Contents (Elt Ideal)) (b : (⟨S128, .f32⟩ : BufTy).Contents (Elt Ideal)) :
    val_main_v12 (F := Ideal) x adj W b = Cert.Sage.layer x adj W b := by
  funext j
  obtain ⟨r, o, rfl⟩ : ∃ (r : Fin 10000) (o : Fin 128), j = ix2 r o := ⟨j 0, j 1, eq_ix2 j⟩
  rw [val_main_v12_apply, val_main_v11_apply, val_main_v8_apply, bias_apply, val_main_call1_v0_apply,
    val_main_call1_cst_apply, Cert.Sage.sum_halves]
  simp only [cat_lo, cat_hi, wt_apply, agg_ref, Ideal.maximumf_def, Ideal.addf_def, Ideal.ofBits_def]
  rfl

end Cert.ReferenceIdeal.RefValue

end
-- ==== Proof.lean ====
/-
  The kernel and its reference compute the same GraphSAGE layer over the extended reals.

  Both programs take node features `x` [10000, 128], a dense adjacency `adj` [10000, 10000], weights `W` [128, 256]
  and a bias `b` [128], and return, at node `r` and output feature `o`,

      max ((∑_f x[r, f] · W[o, f]) + (∑_f agg r f · W[o, 128 + f]) + b[o]) 0,
      agg r f = (∑ₖ adj[r, k] · x[k, f]) / max (∑ₖ adj[r, k]) 1.

  The reference forms the 256-long row (x[r, ·], agg r ·) and multiplies it by the transposed weights; the kernel
  walks the nodes in 50 blocks of 200, and multiplies the node's own features and the aggregated ones by the two
  halves of the weights separately. At exact arithmetic the two differ only in how one finite sum is grouped (256
  terms, or 128 and 128) and in the order of the two arguments of a maximum; neither needs the inputs to be
  finite. The kernel's idealization rewrites nothing, so that it is the kernel's sanctioned idealization is immediate.

  The three programs' runs terminate without fault and leave their arguments unchanged: for the two kernel programs
  by their generated frames, for the reference by its generated run.
-/
import proofs.«155716_g62165356642709_cont_9to1_m_1371_17_alg».proof.Defs
import proofs.«155716_g62165356642709_cont_9to1_m_1371_17_alg».proof.Proof.Gen.Kernel
import proofs.«155716_g62165356642709_cont_9to1_m_1371_17_alg».proof.Proof.Gen.Kernel.Skeleton
import proofs.«155716_g62165356642709_cont_9to1_m_1371_17_alg».proof.Proof.Gen.Kernel.Launch
import proofs.«155716_g62165356642709_cont_9to1_m_1371_17_alg».proof.Proof.Gen.Kernel.Points
import proofs.«155716_g62165356642709_cont_9to1_m_1371_17_alg».proof.Proof.Gen.Kernel.Frame
import proofs.«155716_g62165356642709_cont_9to1_m_1371_17_alg».proof.Proof.Gen.KernelIdeal
import proofs.«155716_g62165356642709_cont_9to1_m_1371_17_alg».proof.Proof.Gen.KernelIdeal.Skeleton
import proofs.«155716_g62165356642709_cont_9to1_m_1371_17_alg».proof.Proof.Gen.KernelIdeal.Launch
import proofs.«155716_g62165356642709_cont_9to1_m_1371_17_alg».proof.Proof.Gen.KernelIdeal.Points
import proofs.«155716_g62165356642709_cont_9to1_m_1371_17_alg».proof.Proof.Gen.KernelIdeal.Frame
import proofs.«155716_g62165356642709_cont_9to1_m_1371_17_alg».proof.Proof.Gen.ReferenceIdeal
import proofs.«155716_g62165356642709_cont_9to1_m_1371_17_alg».proof.Proof.Gen.Pre_finite_inputs
import proofs.«155716_g62165356642709_cont_9to1_m_1371_17_alg».proof.Proof.Gen.KernelIdeal.Value
import proofs.«155716_g62165356642709_cont_9to1_m_1371_17_alg».proof.Proof.Gen.ReferenceIdeal.Run
import proofs.«155716_g62165356642709_cont_9to1_m_1371_17_alg».proof.Proof.Gen.ReferenceIdeal.Read
import proofs.«155716_g62165356642709_cont_9to1_m_1371_17_alg».proof.Proof.WholeArray
import proofs.«155716_g62165356642709_cont_9to1_m_1371_17_alg».proof.Proof.RefIsLayer
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel is rewritten in its idealization, so there is nothing to preserve. -/
theorem preserves : Cert.preserves_Kernel_KernelIdeal := trivial

/-- From memories that agree on the four arguments, the kernel's result array ends at the layer of its arguments
    (the 50 written blocks tile it) and the reference's at the last stage of its straight line, which is the layer of
    its arguments: the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_is_layer _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
